-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  main_v3
-- ==== Kernel.lean ====
abbrev S64x3x512x512 : Shape := ⟨4, ![64, 3, 512, 512]⟩
abbrev S64x1x1x1 : Shape := ⟨4, ![64, 1, 1, 1]⟩
abbrev S1x3x512x512 : Shape := ⟨4, ![1, 3, 512, 512]⟩
abbrev S1x1x1x1 : Shape := ⟨4, ![1, 1, 1, 1]⟩
abbrev S1x1x3x512x512 : Shape := ⟨5, ![1, 1, 3, 512, 512]⟩
abbrev S1 : Shape := ⟨1, ![1]⟩
abbrev S1x1x1x1x1 : Shape := ⟨5, ![1, 1, 1, 1, 1]⟩
abbrev S64 : Shape := ⟨1, ![64]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S64x3x512x512, .f32⟩
  | .hbm, ⟨1, _⟩ => ⟨S64x1x1x1, .f32⟩
  | .hbm, ⟨2, _⟩ => ⟨S64x1x1x1, .f32⟩
  | .hbm, ⟨3, _⟩ => ⟨S64x1x1x1, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x1x1x1, .f32⟩
  | .hbm, ⟨17, _⟩ => ⟨S64x1x1x1, .f32⟩
  | .hbm, ⟨18, _⟩ => ⟨S64x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x1x1, .f32⟩
  | .local _ .vmem, ⟨3, _⟩ => ⟨S1x1x1x1, .f32⟩
  | .local _ .vmem, ⟨4, _⟩ => ⟨S1x1x1x1, .f32⟩
  | .local _ .vmem, ⟨5, _⟩ => ⟨S1x1x1x1, .f32⟩
  | .local _ .vmem, ⟨6, _⟩ => ⟨S1x1x1x1, .f32⟩
  | .local _ .vmem, ⟨7, _⟩ => ⟨S1x1x1x1, .f32⟩
  | .local _ .vmem, ⟨8, _⟩ => ⟨S1x3x512x512, .f32⟩
  | .local _ .vmem, ⟨9, _⟩ => ⟨S1x3x512x512, .f32⟩
  | .local _ .vmem, ⟨10, _⟩ => ⟨S1x1x1x1, .f32⟩
  | .local _ .vmem, ⟨11, _⟩ => ⟨S1x1x1x1, .f32⟩
  | .local _ .vmem, ⟨12, _⟩ => ⟨S1x1x1x1, .f32⟩
  | .local _ .vmem, ⟨13, _⟩ => ⟨S1x1x1x1, .f32⟩
  | .local _ .vmem, ⟨14, _⟩ => ⟨S1x3x512x512, .f32⟩
  | .local _ .vmem, ⟨15, _⟩ => ⟨S1x3x512x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x3x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  natLt_1_32 : 1 < 32
  shapeCasts_S1x3x512x512_S1x1x3x512x512 : S1x3x512x512.ShapeCasts S1x1x3x512x512
  reduces_S1x1x3x512x512_S1 : S1x1x3x512x512.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S64x1x1x1_S64 : S64x1x1x1.ShapeCasts S64
  bcast_S_S64 : S_.BroadcastsInDim S64 (![] : Fin 0 → Fin S64.rank)
  shapeCasts_S64_S64x1x1x1 : S64.ShapeCasts S64x1x1x1
  shapeCasts_S1x1x1x1_S1x1x1x1 : S1x1x1x1.ShapeCasts S1x1x1x1
  broadcasts_S1x1x1x1_S1x3x512x512 : S1x1x1x1.Broadcasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S64x3x512x512.size a
  hwx0_0 : ∀ i : grid0.Coords, EltTy.bits .f32 = 32 ∨ (Rect.block (s := S64x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1.size a ≤ S64x1x1x1.size a
  hwx0_1 : ∀ i : grid0.Coords, EltTy.bits .f32 = 32 ∨ (Rect.block (s := S64x1x1x1) S1x1x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S64x1x1x1.size a
  hwx0_2 : ∀ i : grid0.Coords, EltTy.bits .f32 = 32 ∨ (Rect.block (s := S64x1x1x1) S1x1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1.size a ≤ S64x1x1x1.size a
  hwx0_3 : ∀ i : grid0.Coords, EltTy.bits .f32 = 32 ∨ (Rect.block (s := S64x1x1x1) S1x1x1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x512x512.size a ≤ S64x3x512x512.size a
  hwx1_0 : ∀ i : grid1.Coords, EltTy.bits .f32 = 32 ∨ (Rect.block (s := S64x3x512x512) S1x3x512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1x1.size a ≤ S64x1x1x1.size a
  hwx1_1 : ∀ i : grid1.Coords, EltTy.bits .f32 = 32 ∨ (Rect.block (s := S64x1x1x1) S1x1x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1x1.size a ≤ S64x1x1x1.size a
  hwx1_2 : ∀ i : grid1.Coords, EltTy.bits .f32 = 32 ∨ (Rect.block (s := S64x1x1x1) S1x1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3x512x512.size a ≤ S64x3x512x512.size a
  hwx1_3 : ∀ i : grid1.Coords, EltTy.bits .f32 = 32 ∨ (Rect.block (s := S64x3x512x512) S1x3x512x512.size (cc1_transform_3 i) (hinb1_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x1x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x3x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x1x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x3x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x3x512x512 : Shape := ⟨4, ![64, 3, 512, 512]⟩
abbrev S_ : Shape := ⟨0, ![]⟩
abbrev S64 : Shape := ⟨1, ![64]⟩
abbrev S64x1x1x1 : Shape := ⟨4, ![64, 1, 1, 1]⟩

abbrev nBuf : Space → Nat
  | .hbm => 30
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S_, .f32⟩
  | .hbm, ⟨2, _⟩ => ⟨S64x3x512x512, .f32⟩
  | .hbm, ⟨3, _⟩ => ⟨S64x3x512x512, .i1⟩
  | .hbm, ⟨4, _⟩ => ⟨S64x3x512x512, .f32⟩
  | .hbm, ⟨5, _⟩ => ⟨S_, .f32⟩
  | .hbm, ⟨6, _⟩ => ⟨S64, .f32⟩
  | .hbm, ⟨7, _⟩ => ⟨S64x1x1x1, .f32⟩
  | .hbm, ⟨8, _⟩ => ⟨S64x3x512x512, .f32⟩
  | .hbm, ⟨9, _⟩ => ⟨S_, .f32⟩
  | .hbm, ⟨10, _⟩ => ⟨S64, .f32⟩
  | .hbm, ⟨11, _⟩ => ⟨S64x1x1x1, .f32⟩
  | .hbm, ⟨12, _⟩ => ⟨S64x1x1x1, .f32⟩
  | .hbm, ⟨13, _⟩ => ⟨S64x3x512x512, .f32⟩
  | .hbm, ⟨14, _⟩ => ⟨S64x3x512x512, .f32⟩
  | .hbm, ⟨15, _⟩ => ⟨S64x3x512x512, .f32⟩
  | .hbm, ⟨16, _⟩ => ⟨S64x3x512x512, .f32⟩
  | .hbm, ⟨17, _⟩ => ⟨S_, .f32⟩
  | .hbm, ⟨18, _⟩ => ⟨S64, .f32⟩
  | .hbm, ⟨19, _⟩ => ⟨S64x1x1x1, .f32⟩
  | .hbm, ⟨20, _⟩ => ⟨S_, .f32⟩
  | .hbm, ⟨21, _⟩ => ⟨S64x1x1x1, .f32⟩
  | .hbm, ⟨22, _⟩ => ⟨S64x1x1x1, .f32⟩
  | .hbm, ⟨23, _⟩ => ⟨S64x1x1x1, .f32⟩
  | .hbm, ⟨24, _⟩ => ⟨S64x1x1x1, .f32⟩
  | .hbm, ⟨25, _⟩ => ⟨S64x3x512x512, .f32⟩
  | .hbm, ⟨26, _⟩ => ⟨S64x3x512x512, .f32⟩
  | .hbm, ⟨27, _⟩ => ⟨S64x3x512x512, .f32⟩
  | .hbm, ⟨28, _⟩ => ⟨S64x3x512x512, .f32⟩
  | .hbm, ⟨29, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_cst_3 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  reducesTo_S64x3x512x512_S64_d1_2_3 : S64x3x512x512.ReducesTo [1, 2, 3] S64
  h_S_ : 0 < S_.numel
  bcast_S64_S64x1x1x1_0 : S64.BroadcastsInDim S64x1x1x1 (![0] : Fin 1 → Fin S64x1x1x1.rank)
  bcast_S64x1x1x1_S64x3x512x512_0_1_2_3 : S64x1x1x1.BroadcastsInDim S64x3x512x512 (![0, 1, 2, 3] : Fin 4 → Fin S64x3x512x512.rank)
  bcast_S_S64x1x1x1 : S_.BroadcastsInDim S64x1x1x1 (![] : Fin 0 → Fin S64x1x1x1.rank)

variable [Facts₀]

class Facts : Prop extends Facts₀ where

variable [Facts]
-- ==== Proof.MaskedStats.lean ====
/-
  Masked statistics of one sample, on the extended reals.

  A sample is a finite family `x k` of entries. Its mask is `ind (x k)`: one where the entry is not zero,
  zero where it is. Two ways of taking the mean and the spread of the unmasked entries are compared:

  * from three plain sums — the count `n = ∑ ind (x k)`, the total `S = ∑ x k` and the total of squares
    `Q = ∑ x k · x k` —: mean `S / n`, spread `√((Q − S·S / n) / (n − 1))`;
  * from the masked sums: mean `μ = (∑ x k · ind (x k)) / n`, spread `√((∑ (x k − μ)² · ind (x k)) / (n − 1))`.

  The masked total is the plain total at every family (a masked-out entry is zero, so it adds nothing either
  way: `maskedTotal_eq`), hence the two means are one (`meanR_eq`). The masked sum of squared deviations is
  `Q − S·S / n` when every entry is a real number and some entry is not zero (`maskedDev_eq`): over the reals
  `∑ (x − μ)² · ind = Q − 2 μ S + μ² n`, and `μ = S / n` with `n ≠ 0`. Both quotients by `n − 1` and both
  square roots are then taken of equal arguments (`stdR_eq`); what a quotient by zero means never matters.
-/
import Idealize.ShloMosaic.PureOps.Ideal
import Idealize.ShloMosaic.PureOps.Ideal.Laws
import Mathlib.Tactic

noncomputable section

namespace Cert.MaskedStats

open Idealize.ShloMosaic

/-- The mask's value at an entry: one where the entry is not zero, zero where it is. -/
def ind (x : EReal) : EReal := if x = 0 then 0 else 1

/-- A masked entry is the entry: a masked-out entry is zero already. -/
theorem mul_ind (x : EReal) : x * ind x = x := by
  unfold ind
  split_ifs with h
  · rw [h, mul_zero]
  · rw [mul_one]

/-- The mask of a real entry is a real number. -/
theorem ind_coe (r : ℝ) : ind (r : EReal) = ((if r = 0 then (0 : ℝ) else 1 : ℝ) : EReal) := by
  unfold ind
  by_cases h : r = 0
  · rw [if_pos h, if_pos (by rw [h]; rfl)]; rfl
  · rw [if_neg h, if_neg (by exact_mod_cast h)]; rfl

/-- A finite sum of real numbers, taken in the extended reals, is the real sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The quotient of two real numbers by a divisor that is not zero is the real quotient. -/
theorem div_coe_coe (a n : ℝ) (hn : n ≠ 0) : Ideal.div (a : EReal) (n : EReal) = ((a / n : ℝ) : EReal) := by
  rw [Ideal.div_coe hn, ← EReal.coe_mul, mul_one_div]

variable {ι : Type*} [Fintype ι]

/-- The number of entries that are not zero. -/
def cnt (x : ι → EReal) : EReal := ∑ k, ind (x k)
/-- The sum of the entries. -/
def total (x : ι → EReal) : EReal := ∑ k, x k
/-- The sum of the entries' squares. -/
def totalSq (x : ι → EReal) : EReal := ∑ k, x k * x k
/-- The sum of the masked entries. -/
def maskedTotal (x : ι → EReal) : EReal := ∑ k, x k * ind (x k)
/-- The masked sum of the squared deviations from `μ`. -/
def maskedDev (x : ι → EReal) (μ : EReal) : EReal := ∑ k, (x k - μ) * (x k - μ) * ind (x k)

/-- Masking changes no term of the total. -/
theorem maskedTotal_eq (x : ι → EReal) : maskedTotal x = total x :=
  Finset.sum_congr rfl fun k _ => mul_ind (x k)

/-- The mean from the plain sums. -/
def meanK (x : ι → EReal) : EReal := Ideal.div (total x) (cnt x)
/-- The spread from the plain sums; `c1` is the one subtracted from the count. -/
def stdK (c1 : EReal) (x : ι → EReal) : EReal :=
  Ideal.sqrt (Ideal.div (totalSq x - Ideal.div (total x * total x) (cnt x)) (cnt x - c1))
/-- The mean from the masked total. -/
def meanR (x : ι → EReal) : EReal := Ideal.div (maskedTotal x) (cnt x)
/-- The spread from the masked squared deviations. -/
def stdR (c1 : EReal) (x : ι → EReal) : EReal :=
  Ideal.sqrt (Ideal.div (maskedDev x (meanR x)) (cnt x - c1))

theorem meanR_eq (x : ι → EReal) : meanR x = meanK x := by
  unfold meanR meanK; rw [maskedTotal_eq]

/-- Over the reals: the masked sum of squared deviations from `S / n` is `Q − S·S / n`, the count `n` not zero. -/
theorem real_dev (r : ι → ℝ) (n S : ℝ) (hn : n = ∑ k, (if r k = 0 then (0 : ℝ) else 1)) (hS : S = ∑ k, r k) (h0 : n ≠ 0) :
    ∑ k, (r k - S / n) * (r k - S / n) * (if r k = 0 then (0 : ℝ) else 1) = (∑ k, r k * r k) - S * S / n := by
  have hterm : ∀ k, (r k - S / n) * (r k - S / n) * (if r k = 0 then (0 : ℝ) else 1)
      = r k * r k - 2 * (S / n) * r k + (S / n) * (S / n) * (if r k = 0 then (0 : ℝ) else 1) := by
    intro k
    by_cases h : r k = 0
    · rw [if_pos h, h]; ring
    · rw [if_neg h]; ring
  rw [Finset.sum_congr rfl fun k _ => hterm k, Finset.sum_add_distrib, Finset.sum_sub_distrib, ← Finset.mul_sum,
    ← Finset.mul_sum, ← hn, ← hS]
  field_simp
  ring

/-- When every entry is a real number and some entry is not zero, the masked sum of squared deviations from the
    mean is the total of squares less the squared total over the count. -/
theorem maskedDev_eq (x : ι → EReal) (hfin : ∀ k, ∃ r : ℝ, x k = r) (hne : ∃ k, x k ≠ 0) :
    maskedDev x (meanR x) = totalSq x - Ideal.div (total x * total x) (cnt x) := by
  choose r hr using hfin
  obtain rfl : x = fun k => (r k : EReal) := funext hr
  obtain ⟨k0, hk0⟩ := hne
  have hk0' : r k0 ≠ 0 := fun h => hk0 (by show ((r k0 : ℝ) : EReal) = 0; rw [h]; rfl)
  set n : ℝ := ∑ k, (if r k = 0 then (0 : ℝ) else 1) with hn
  set S : ℝ := ∑ k, r k with hS
  have hcnt : cnt (fun k => (r k : EReal)) = (n : EReal) := by
    unfold cnt; rw [hn, coe_sum]; exact Finset.sum_congr rfl fun k _ => ind_coe (r k)
  have htot : total (fun k => (r k : EReal)) = (S : EReal) := by
    unfold total; rw [hS, coe_sum]
  have hsq : totalSq (fun k => (r k : EReal)) = ((∑ k, r k * r k : ℝ) : EReal) := by
    unfold totalSq; rw [coe_sum]; exact Finset.sum_congr rfl fun k _ => (EReal.coe_mul _ _).symm
  have hpos : n ≠ 0 := by
    have h1 : (1 : ℝ) ≤ n := by
      rw [hn]
      calc (1 : ℝ) = (if r k0 = 0 then (0 : ℝ) else 1) := by rw [if_neg hk0']
        _ ≤ ∑ k, (if r k = 0 then (0 : ℝ) else 1) :=
          Finset.single_le_sum (f := fun k => (if r k = 0 then (0 : ℝ) else 1))
            (fun k _ => by show (0 : ℝ) ≤ (if r k = 0 then (0 : ℝ) else 1); split_ifs <;> norm_num) (Finset.mem_univ k0)
    exact ne_of_gt (lt_of_lt_of_le one_pos h1)
  have hmean : meanR (fun k => (r k : EReal)) = ((S / n : ℝ) : EReal) := by
    rw [meanR_eq]; unfold meanK; rw [hcnt, htot, div_coe_coe _ _ hpos]
  rw [hmean, hcnt, htot, hsq, ← EReal.coe_mul, div_coe_coe _ _ hpos, ← EReal.coe_sub, ← real_dev r n S hn hS hpos,
    coe_sum]
  unfold maskedDev
  refine Finset.sum_congr rfl fun k _ => ?_
  rw [ind_coe, ← EReal.coe_sub, ← EReal.coe_mul, ← EReal.coe_mul]

/-- So the two spreads are one number there. -/
theorem stdR_eq (c1 : EReal) (x : ι → EReal) (hfin : ∀ k, ∃ r : ℝ, x k = r) (hne : ∃ k, x k ≠ 0) :
    stdR c1 x = stdK c1 x := by
  unfold stdR stdK; rw [maskedDev_eq x hfin hne]

end Cert.MaskedStats

end
-- ==== Proof.Sample.lean ====
/-
  One sample of the [64, 3, 512, 512] array, and the sums taken over it.

  Sample `b` is the [1, 3, 512, 512] slab of the array at leading coordinate `b`: its entry `y` is the array's
  entry `(b, y 1, y 2, y 3)` (`entry`, `sample`). Two spellings of "sum over the sample" are read as a sum over
  the slab's own index set: a host reduction over the axes 1, 2, 3 at result index `b` (the array's indices
  whose leading coordinate is `b` are exactly the `entry b y`: `hostSum`), and the total of a slab recast to
  [1, 1, 3, 512, 512] (a recast only renames the indices: `castSum`). The small layout steps between a [64]
  vector, a [64, 1, 1, 1] column and a [1, 1, 1, 1] block broadcast over a slab are read at an index.
-/
import Idealize.ShloMosaic.Lib.ValueIdx
import Idealize.ShloMosaic.Lib.Pipeline.Value
import Idealize.ShloMosaic.Lib.IdealHost
import Idealize.ShloMosaic.PureOps.Ideal.Laws

noncomputable section

namespace Cert.Sample

open Idealize.ShloMosaic Idealize.ShloMosaic.ValueIdx

abbrev SArr : Shape := ⟨4, ![64, 3, 512, 512]⟩
abbrev SBlk : Shape := ⟨4, ![1, 3, 512, 512]⟩
abbrev SBlk5 : Shape := ⟨5, ![1, 1, 3, 512, 512]⟩
abbrev SCol : Shape := ⟨4, ![64, 1, 1, 1]⟩
abbrev SOne : Shape := ⟨4, ![1, 1, 1, 1]⟩
abbrev SRow : Shape := ⟨1, ![64]⟩

/-- Entry `y` of sample `b`, as an index of the whole array. -/
def entry (b : Fin 64) (y : SBlk.Idx) : SArr.Idx := ix4 b (y 1) (y 2) (y 3)

/-- Sample `b` of an array. -/
def sample {α : Type} (X : SArr.Idx → α) (b : Fin 64) : SBlk.Idx → α := fun y => X (entry b y)

/-- The sample an entry of the array belongs to. -/
def rowOf (i : SArr.Idx) : Fin 64 := ⟨(i 0).val, (i 0).isLt⟩

/-- The sample a [64, 1, 1, 1] column's entry stands for. -/
def colRow (j : SCol.Idx) : Fin 64 := ⟨(j 0).val, (j 0).isLt⟩

/-- The one index of a [1, 1, 1, 1] block. -/
def one0 : SOne.Idx := ix4 0 0 0 0

theorem entry_rowOf (i : SArr.Idx) : entry (rowOf i) (ix4 0 (i 1) (i 2) (i 3)) = i := by
  funext a
  match a with
  | ⟨0, _⟩ => rfl
  | ⟨1, _⟩ => rfl
  | ⟨2, _⟩ => rfl
  | ⟨3, _⟩ => rfl

/-- A host sum over the axes 1, 2, 3, read at sample `b`: the initial value plus the sum over the sample. -/
theorem hostSum (h' : SArr.ReducesTo [1, 2, 3] SRow) (F : SArr.Idx → EReal) (init : EReal) (b : Fin 64) :
    Ideal.hostReduceAdd h' F init (ix1 b) = init + ∑ y : SBlk.Idx, F (entry b y) := by
  unfold Ideal.hostReduceAdd
  congr 1
  symm
  refine Finset.sum_bij (fun y _ => entry b y) (fun y _ => ?_) (fun y _ y' _ e => ?_) (fun i hi => ?_) (fun y _ => rfl)
  · rw [Finset.mem_filter]
    refine ⟨Finset.mem_univ _, ?_⟩
    funext a
    apply Fin.ext
    match a with
    | ⟨0, _⟩ => exact Shape.ReducesTo.drop_apply_val_of_eq h' (entry b y) 0 0
  · funext a
    apply Fin.ext
    match a with
    | ⟨0, _⟩ =>
      have h1 : (y 0).val < 1 := (y 0).isLt
      have h2 : (y' 0).val < 1 := (y' 0).isLt
      show (y 0).val = (y' 0).val
      omega
    | ⟨1, _⟩ => exact congrArg Fin.val (congrFun e 1)
    | ⟨2, _⟩ => exact congrArg Fin.val (congrFun e 2)
    | ⟨3, _⟩ => exact congrArg Fin.val (congrFun e 3)
  · obtain ⟨-, hd⟩ := Finset.mem_filter.mp hi
    have h0 : (i 0).val = b.val := by
      have e1 : (h'.drop i 0 : Nat) = (i 0 : Nat) := Shape.ReducesTo.drop_apply_val_of_eq h' i 0 0
      have e2 : (h'.drop i 0 : Nat) = b.val := by rw [hd]
      omega
    refine ⟨ix4 0 (i 1) (i 2) (i 3), Finset.mem_univ _, ?_⟩
    funext a
    apply Fin.ext
    match a with
    | ⟨0, _⟩ => exact h0.symm
    | ⟨1, _⟩ => rfl
    | ⟨2, _⟩ => rfl
    | ⟨3, _⟩ => rfl

/-- The total of a slab recast to [1, 1, 3, 512, 512] is the slab's total. -/
theorem castSum (v : SBlk.Idx → EReal) (h : SBlk.ShapeCasts SBlk5) :
    ∑ j : SBlk5.Idx, shapeCast SBlk5 v h j = ∑ y : SBlk.Idx, v y := by
  unfold shapeCast
  exact Equiv.sum_comp (Shape.reshapeEquiv h) v

/-- A [1, 1, 1, 1] block broadcast over a slab reads its one entry everywhere. -/
theorem bcastOne {α : Type} (v : SOne.Idx → α) (h : SOne.Broadcasts SBlk) (y : SBlk.Idx) :
    broadcastTo SBlk v h y = v one0 :=
  broadcastTo_apply v h y one0 fun a => by
    match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl]
    | ⟨3, _⟩ => show 0 = if (1 : Nat) = 1 then 0 else _; rw [if_pos rfl]

/-- A [64] vector recast as a [64, 1, 1, 1] column: entry `j` is the vector's entry at `j`'s sample. -/
theorem colOfRow {α : Type} (v : SRow.Idx → α) (h : SRow.ShapeCasts SCol) (j : SCol.Idx) :
    shapeCast SCol v h j = v (ix1 (colRow j)) := by
  refine shapeCast_apply v h j (ix1 (colRow j)) ?_
  rw [Shape.rowMajor_val_one, Shape.rowMajor_val_four]
  have h1 : (j 1).val < 1 := (j 1).isLt
  have h2 : (j 2).val < 1 := (j 2).isLt
  have h3 : (j 3).val < 1 := (j 3).isLt
  show (j 0).val = (((j 0).val * 1 + (j 1).val) * 1 + (j 2).val) * 1 + (j 3).val
  omega

/-- A [64, 1, 1, 1] column recast as a [64] vector: entry `b` is the column's entry `(b, 0, 0, 0)`. -/
theorem rowOfCol {α : Type} (v : SCol.Idx → α) (h : SCol.ShapeCasts SRow) (b : Fin 64) :
    shapeCast SRow v h (ix1 b) = v (ix4 b 0 0 0) := by
  refine shapeCast_apply v h (ix1 b) (ix4 b 0 0 0) ?_
  rw [Shape.rowMajor_val_one, Shape.rowMajor_val_four]
  show ((b.val * 1 + 0) * 1 + 0) * 1 + 0 = b.val
  omega

end Cert.Sample

end
-- ==== Proof.KernelBody.lean ====
/-
  What the two kernel bodies compute from the blocks they load, at the extended reals.

  The first body loads one sample (a [1, 3, 512, 512] block) and stores three numbers: the count of its entries
  that are not zero (the mask `x ≠ 0` widened to a word, read as a float and summed), the sum of its entries, and
  the sum of their squares — each a total over the block recast to [1, 1, 3, 512, 512], which is the total over
  the block itself. The second body loads the sample and two one-entry blocks `μ`, `σ` and stores, entry by
  entry, `(x − μ) / σ` where `x ≠ 0` and `x` where `x = 0`.
-/
import proofs.«181415_j30167850287224_1_alg».proof.Proof.Gen.KernelIdeal.Skeleton
import proofs.«181415_j30167850287224_1_alg».proof.Proof.MaskedStats
import proofs.«181415_j30167850287224_1_alg».proof.Proof.Sample
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Idealize.ShloMosaic Idealize.ShloMosaic.ValueIdx
open Cert.MaskedStats Cert.Sample

/-- The comparison "not equal to zero", on the extended reals, as a bit. -/
theorem cmp_ne_zero (x : EReal) : Ideal.cmp .one x (Ideal.ofBits .f32 0x00000000#32) = if x = 0 then 0#1 else 1#1 := by
  rw [Ideal.ofBits_zero_f32]
  unfold Ideal.cmp
  by_cases h : x = 0
  · rw [if_pos h]; simp [h]
  · rw [if_neg h]; simp [h]

/-- The body's mask entry — the bit widened to a word and read as a signed integer — is the mask's value. -/
theorem maskWord_eq (x : EReal) :
    FloatOps.sitofp (F := Ideal) .f32 ((FloatOps.cmpf (F := Ideal) (φ := .f32) .one x (Scalar.ofBits .f32 0x00000000#32)).setWidth 32) = ind x := by
  show (((((Ideal.cmp .one x (Ideal.ofBits .f32 0x00000000#32)).setWidth 32).toInt : ℝ)) : EReal) = ind x
  rw [cmp_ne_zero]
  unfold ind
  by_cases h : x = 0
  · rw [if_pos h, if_pos h, show ((0#1 : BitVec 1).setWidth 32).toInt = 0 from by decide]; simp
  · rw [if_neg h, if_neg h, show ((1#1 : BitVec 1).setWidth 32).toInt = 1 from by decide]; simp

/-- A choice on that bit: the first value where `x ≠ 0`, the second where `x = 0`. -/
theorem select_ne_zero {α : Type} (x : EReal) (a b : α) :
    Scalar.select (FloatOps.cmpf (F := Ideal) (φ := .f32) .one x (Scalar.ofBits .f32 0x00000000#32)) a b = if x = 0 then b else a := by
  show Scalar.select (Ideal.cmp .one x (Ideal.ofBits .f32 0x00000000#32)) a b = _
  rw [cmp_ne_zero]
  by_cases h : x = 0
  · rw [if_pos h, if_pos h]; exact select_zero a b
  · rw [if_neg h, if_neg h]; exact select_one a b

theorem S1_unit : ∀ b : Fin S1.rank, S1.size b = 1 := fun b => by
  match b with
  | ⟨0, _⟩ => rfl

/-- The first stored number: the count of the sample's entries that are not zero. -/
theorem pay_cnt (x0 : Vec Ideal S1x3x512x512 .f32) (y : S1x1x1x1.Idx) : k0_pay1 (F := Ideal) x0 y = cnt x0 := by
  unfold k0_pay1
  rw [broadcast_apply]
  unfold extractAt
  unfold shapeCast
  refine Eq.trans (Ideal.multiReduction_add_total (φ := .f32) _ 0x00000000#32 reduces_S1x1x3x512x512_S1 S1_unit (.inl rfl) rfl _) ?_
  unfold cnt
  refine Eq.trans ?_ (Equiv.sum_comp (Shape.reshapeEquiv shapeCasts_S1x3x512x512_S1x1x3x512x512) (fun y => ind (x0 y)))
  exact Finset.sum_congr rfl fun i _ => maskWord_eq (x0 (Shape.reshapeEquiv shapeCasts_S1x3x512x512_S1x1x3x512x512 i))

/-- The second: the sum of the sample's entries. -/
theorem pay_total (x0 : Vec Ideal S1x3x512x512 .f32) (y : S1x1x1x1.Idx) : k0_pay2 (F := Ideal) x0 y = total x0 := by
  unfold k0_pay2
  rw [broadcast_apply]
  unfold extractAt
  unfold shapeCast
  refine Eq.trans (Ideal.multiReduction_add_total (φ := .f32) _ 0x00000000#32 reduces_S1x1x3x512x512_S1 S1_unit (.inl rfl) rfl _) ?_
  unfold total
  exact Equiv.sum_comp (Shape.reshapeEquiv shapeCasts_S1x3x512x512_S1x1x3x512x512) x0

/-- The third: the sum of their squares. -/
theorem pay_totalSq (x0 : Vec Ideal S1x3x512x512 .f32) (y : S1x1x1x1.Idx) : k0_pay3 (F := Ideal) x0 y = totalSq x0 := by
  unfold k0_pay3
  rw [broadcast_apply]
  unfold extractAt
  unfold shapeCast
  refine Eq.trans (Ideal.multiReduction_add_total (φ := .f32) _ 0x00000000#32 reduces_S1x1x3x512x512_S1 S1_unit (.inl rfl) rfl _) ?_
  unfold totalSq
  exact Equiv.sum_comp (Shape.reshapeEquiv shapeCasts_S1x3x512x512_S1x1x3x512x512) (fun y => x0 y * x0 y)

/-- The second body's stored entry. -/
theorem pay_norm (x0 : Vec Ideal S1x3x512x512 .f32) (x1 x3 : Vec Ideal S1x1x1x1 .f32) (y : S1x3x512x512.Idx) :
    k1_pay1 (F := Ideal) x0 x1 x3 y = if x0 y = 0 then x0 y else Ideal.div (x0 y - x1 one0) (x3 one0) := by
  unfold k1_pay1
  try dsimp only
  rw [select_apply, cmpf_apply, broadcast_apply, select_ne_zero, divf_apply, subf_apply, bcastOne, bcastOne,
    shapeCast_self, shapeCast_self]

end Cert.KernelIdeal.Body

end
-- ==== Proof.Region0.lean ====
/-
  The first call, read as values: after it the three [64, 1, 1, 1] arrays hold, sample by sample, the count of the
  entries that are not zero, the sum of the entries and the sum of their squares.

  Point `t` of the 64-point grid loads sample `t` of the input (its block indices are `(t, 0, 0, 0)`: `idx_facts0`,
  `iblk0_entry`) and writes one entry, `(t, 0, 0, 0)`, of each result array; the 64 one-entry blocks cover each array.
-/
import proofs.«181415_j30167850287224_1_alg».proof.Proof.Gen.KernelIdeal.Frame
import proofs.«181415_j30167850287224_1_alg».proof.Proof.KernelBody
import Idealize.ShloMosaic.Lib.Pipeline.Value

noncomputable section

namespace Cert.KernelIdeal.Hand

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx Cert.MaskedStats Cert.Sample

variable (V : (c : Dev nD) → (b : Ref sig .tc) → Buf (Elt Ideal) ((c : Thread nD τ).loc b))

theorem hz4 : (![0, 0, 0, 0] : Fin 4 → Nat) = fun _ => 0 := funext fun a => by fin_cases a <;> rfl

/-- A grid point of the first call as a sample number. -/
def ptRow (t : Fin cfg0.N) : Fin 64 := ⟨t.val, by have h := t.isLt; have e : cfg0.N = 64 := N_0; omega⟩

/-- The printed index maps of the first call, decided over the grid: every window's block at point `t` is block
    `(t, 0, 0, 0)`. -/
theorem idx_facts0 : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- The input window's block at point `t` is sample `t` of the array the call finds. -/
theorem iblk0_entry (c : Dev nD) (t : Fin cfg0.N) (y : S1x3x512x512.Idx) :
    (iblk0 V c 0 t : Vec Ideal S1x3x512x512 .f32) y = (V c main_arg0 : S64x3x512x512.Idx → EReal) (entry (ptRow t) y) := by
  obtain ⟨e0, e1, e2, e3⟩ := (idx_facts0 t).1
  unfold iblk0
  rw [View.read_apply]
  show V c main_arg0 _ = V c main_arg0 _
  congr 1
  funext a
  apply Fin.ext
  match a with
  | ⟨0, _⟩ => show win0_0.index t 0 * 1 + 1 * (y 0).val = t.val; have hy : (y 0).val < 1 := (y 0).isLt; omega
  | ⟨1, _⟩ => show win0_0.index t 1 * 3 + 1 * (y 1).val = (y 1).val; omega
  | ⟨2, _⟩ => show win0_0.index t 2 * 512 + 1 * (y 2).val = (y 2).val; omega
  | ⟨3, _⟩ => show win0_0.index t 3 * 512 + 1 * (y 3).val = (y 3).val; omega

/-- What point `t` writes back through window 1: block `t` of the column of the samples' counts. -/
theorem flushed0_1 (c : Dev nD) (t : Fin cfg0.N) :
    (dat0 V c).flushed 1 t = ((cfg0.win 1).blk t).view.read (Elt Ideal)
      (fun j : S64x1x1x1.Idx => cnt (sample (V c main_arg0 : S64x3x512x512.Idx → EReal) (colRow j))) := by
  show (cfg0.win 1).cut (grid0.coords t) ((dat0 V c).after 1 t) = _
  rw [after0_1]
  unfold out0_1
  rw [View.canon_unit_zero hz4]
  simp only [View.ld_unit_zero (S := S1x3x512x512) hz4]
  have e0 := (idx_facts0 t).2.1.1
  funext j
  have hread : ∀ G : S64x1x1x1.Idx → EReal,
      ((cfg0.win 1).blk t).view.read (Elt Ideal) G j = G (((cfg0.win 1).blk t).view.emb j) := fun G => rfl
  refine Eq.trans ?_ (hread _).symm
  show k0_pay1 (iblk0 V c 0 t) j = _
  rw [pay_cnt]
  refine congrArg cnt (funext fun y => ?_)
  rw [iblk0_entry]
  refine congrArg (fun b => (V c main_arg0 : S64x3x512x512.Idx → EReal) (entry b y)) (Fin.ext ?_)
  show t.val = win0_1.index t 0 * 1 + 1 * (j 0).val
  have hj : (j 0).val < 1 := (j 0).isLt
  omega

/-- An entry of the column is in point `t`'s block iff each coordinate is in the block's range. -/
theorem mem_blk0_1 (t : Fin cfg0.N) (i : S64x1x1x1.Idx) :
    i ∈ ((cfg0.win 1).blk t).view.set ↔ ∀ a : Fin 4, win0_1.index t a * S1x1x1x1.size a ≤ (i a).val ∧ (i a).val < win0_1.index t a * S1x1x1x1.size a + S1x1x1x1.size a := by
  show i ∈ ((View.whole main_v0_0).slice (win0_1.rect t)).set ↔ _
  rw [View.set_slice_whole, Rect.mem_set_unit]
  exact Iff.rfl

/-- Every entry of the column is written: entry `b` by point `b`. -/
theorem covered0_1 (i : S64x1x1x1.Idx) : ∃ t : Fin cfg0.N, (cfg0.win 1).flush t = true ∧ i ∈ ((cfg0.win 1).blk t).view.set := by
  have hi0 : (i 0).val < 64 := (i 0).isLt
  have hi1 : (i 1).val < 1 := (i 1).isLt
  have hi2 : (i 2).val < 1 := (i 2).isLt
  have hi3 : (i 3).val < 1 := (i 3).isLt
  obtain ⟨t, ht⟩ : ∃ t : Fin cfg0.N, t.val = (i 0).val := ⟨⟨(i 0).val, by rw [show cfg0.N = 64 from N_0]; exact hi0⟩, rfl⟩
  refine ⟨t, flush0_1 t, ?_⟩
  rw [mem_blk0_1]
  obtain ⟨e0, e1, e2, e3⟩ := (idx_facts0 t).2.1
  intro a
  match a with
  | ⟨0, _⟩ => show win0_1.index t 0 * 1 ≤ (i 0).val ∧ (i 0).val < win0_1.index t 0 * 1 + 1; omega
  | ⟨1, _⟩ => show win0_1.index t 1 * 1 ≤ (i 1).val ∧ (i 1).val < win0_1.index t 1 * 1 + 1; omega
  | ⟨2, _⟩ => show win0_1.index t 2 * 1 ≤ (i 2).val ∧ (i 2).val < win0_1.index t 2 * 1 + 1; omega
  | ⟨3, _⟩ => show win0_1.index t 3 * 1 ≤ (i 3).val ∧ (i 3).val < win0_1.index t 3 * 1 + 1; omega

/-- After the first call the array behind window 1 holds each sample's count. -/
theorem arr0_1 (c : Dev nD) : (dat0 V c).arrAt 1 cfg0.N
    = fun j : S64x1x1x1.Idx => cnt (sample (V c main_arg0 : S64x3x512x512.Idx → EReal) (colRow j)) :=
  (dat0 V c).arrAt_eq_of_cover 1 _ (fun t _ => flushed0_1 V c t) covered0_1

/-- What point `t` writes back through window 2: block `t` of the column of the samples' totals. -/
theorem flushed0_2 (c : Dev nD) (t : Fin cfg0.N) :
    (dat0 V c).flushed 2 t = ((cfg0.win 2).blk t).view.read (Elt Ideal)
      (fun j : S64x1x1x1.Idx => total (sample (V c main_arg0 : S64x3x512x512.Idx → EReal) (colRow j))) := by
  show (cfg0.win 2).cut (grid0.coords t) ((dat0 V c).after 2 t) = _
  rw [after0_2]
  unfold out0_2
  rw [View.canon_unit_zero hz4]
  simp only [View.ld_unit_zero (S := S1x3x512x512) hz4]
  have e0 := (idx_facts0 t).2.2.1.1
  funext j
  have hread : ∀ G : S64x1x1x1.Idx → EReal,
      ((cfg0.win 2).blk t).view.read (Elt Ideal) G j = G (((cfg0.win 2).blk t).view.emb j) := fun G => rfl
  refine Eq.trans ?_ (hread _).symm
  show k0_pay2 (iblk0 V c 0 t) j = _
  rw [pay_total]
  refine congrArg total (funext fun y => ?_)
  rw [iblk0_entry]
  refine congrArg (fun b => (V c main_arg0 : S64x3x512x512.Idx → EReal) (entry b y)) (Fin.ext ?_)
  show t.val = win0_2.index t 0 * 1 + 1 * (j 0).val
  have hj : (j 0).val < 1 := (j 0).isLt
  omega

/-- An entry of the column is in point `t`'s block iff each coordinate is in the block's range. -/
theorem mem_blk0_2 (t : Fin cfg0.N) (i : S64x1x1x1.Idx) :
    i ∈ ((cfg0.win 2).blk t).view.set ↔ ∀ a : Fin 4, win0_2.index t a * S1x1x1x1.size a ≤ (i a).val ∧ (i a).val < win0_2.index t a * S1x1x1x1.size a + S1x1x1x1.size a := by
  show i ∈ ((View.whole main_v0_1).slice (win0_2.rect t)).set ↔ _
  rw [View.set_slice_whole, Rect.mem_set_unit]
  exact Iff.rfl

/-- Every entry of the column is written: entry `b` by point `b`. -/
theorem covered0_2 (i : S64x1x1x1.Idx) : ∃ t : Fin cfg0.N, (cfg0.win 2).flush t = true ∧ i ∈ ((cfg0.win 2).blk t).view.set := by
  have hi0 : (i 0).val < 64 := (i 0).isLt
  have hi1 : (i 1).val < 1 := (i 1).isLt
  have hi2 : (i 2).val < 1 := (i 2).isLt
  have hi3 : (i 3).val < 1 := (i 3).isLt
  obtain ⟨t, ht⟩ : ∃ t : Fin cfg0.N, t.val = (i 0).val := ⟨⟨(i 0).val, by rw [show cfg0.N = 64 from N_0]; exact hi0⟩, rfl⟩
  refine ⟨t, flush0_2 t, ?_⟩
  rw [mem_blk0_2]
  obtain ⟨e0, e1, e2, e3⟩ := (idx_facts0 t).2.2.1
  intro a
  match a with
  | ⟨0, _⟩ => show win0_2.index t 0 * 1 ≤ (i 0).val ∧ (i 0).val < win0_2.index t 0 * 1 + 1; omega
  | ⟨1, _⟩ => show win0_2.index t 1 * 1 ≤ (i 1).val ∧ (i 1).val < win0_2.index t 1 * 1 + 1; omega
  | ⟨2, _⟩ => show win0_2.index t 2 * 1 ≤ (i 2).val ∧ (i 2).val < win0_2.index t 2 * 1 + 1; omega
  | ⟨3, _⟩ => show win0_2.index t 3 * 1 ≤ (i 3).val ∧ (i 3).val < win0_2.index t 3 * 1 + 1; omega

/-- After the first call the array behind window 2 holds each sample's total. -/
theorem arr0_2 (c : Dev nD) : (dat0 V c).arrAt 2 cfg0.N
    = fun j : S64x1x1x1.Idx => total (sample (V c main_arg0 : S64x3x512x512.Idx → EReal) (colRow j)) :=
  (dat0 V c).arrAt_eq_of_cover 2 _ (fun t _ => flushed0_2 V c t) covered0_2

/-- What point `t` writes back through window 3: block `t` of the column of the samples' total of squaress. -/
theorem flushed0_3 (c : Dev nD) (t : Fin cfg0.N) :
    (dat0 V c).flushed 3 t = ((cfg0.win 3).blk t).view.read (Elt Ideal)
      (fun j : S64x1x1x1.Idx => totalSq (sample (V c main_arg0 : S64x3x512x512.Idx → EReal) (colRow j))) := by
  show (cfg0.win 3).cut (grid0.coords t) ((dat0 V c).after 3 t) = _
  rw [after0_3]
  unfold out0_3
  rw [View.canon_unit_zero hz4]
  simp only [View.ld_unit_zero (S := S1x3x512x512) hz4]
  have e0 := (idx_facts0 t).2.2.2.1
  funext j
  have hread : ∀ G : S64x1x1x1.Idx → EReal,
      ((cfg0.win 3).blk t).view.read (Elt Ideal) G j = G (((cfg0.win 3).blk t).view.emb j) := fun G => rfl
  refine Eq.trans ?_ (hread _).symm
  show k0_pay3 (iblk0 V c 0 t) j = _
  rw [pay_totalSq]
  refine congrArg totalSq (funext fun y => ?_)
  rw [iblk0_entry]
  refine congrArg (fun b => (V c main_arg0 : S64x3x512x512.Idx → EReal) (entry b y)) (Fin.ext ?_)
  show t.val = win0_3.index t 0 * 1 + 1 * (j 0).val
  have hj : (j 0).val < 1 := (j 0).isLt
  omega

/-- An entry of the column is in point `t`'s block iff each coordinate is in the block's range. -/
theorem mem_blk0_3 (t : Fin cfg0.N) (i : S64x1x1x1.Idx) :
    i ∈ ((cfg0.win 3).blk t).view.set ↔ ∀ a : Fin 4, win0_3.index t a * S1x1x1x1.size a ≤ (i a).val ∧ (i a).val < win0_3.index t a * S1x1x1x1.size a + S1x1x1x1.size a := by
  show i ∈ ((View.whole main_v0_2).slice (win0_3.rect t)).set ↔ _
  rw [View.set_slice_whole, Rect.mem_set_unit]
  exact Iff.rfl

/-- Every entry of the column is written: entry `b` by point `b`. -/
theorem covered0_3 (i : S64x1x1x1.Idx) : ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 1 := (i 2).isLt
  have hi3 : (i 3).val < 1 := (i 3).isLt
  obtain ⟨t, ht⟩ : ∃ t : Fin cfg0.N, t.val = (i 0).val := ⟨⟨(i 0).val, by rw [show cfg0.N = 64 from N_0]; exact hi0⟩, rfl⟩
  refine ⟨t, flush0_3 t, ?_⟩
  rw [mem_blk0_3]
  obtain ⟨e0, e1, e2, e3⟩ := (idx_facts0 t).2.2.2
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 1 ≤ (i 2).val ∧ (i 2).val < win0_3.index t 2 * 1 + 1; omega
  | ⟨3, _⟩ => show win0_3.index t 3 * 1 ≤ (i 3).val ∧ (i 3).val < win0_3.index t 3 * 1 + 1; omega

/-- After the first call the array behind window 3 holds each sample's total of squares. -/
theorem arr0_3 (c : Dev nD) : (dat0 V c).arrAt 3 cfg0.N
    = fun j : S64x1x1x1.Idx => totalSq (sample (V c main_arg0 : S64x3x512x512.Idx → EReal) (colRow j)) :=
  (dat0 V c).arrAt_eq_of_cover 3 _ (fun t _ => flushed0_3 V c t) covered0_3

end Cert.KernelIdeal.Hand

end
-- ==== Proof.Region1.lean ====
/-
  The second call, read as values: after it the result array holds, entry by entry, the input's entry where that is
  zero and elsewhere `(x − μ b) / σ b`, `b` the entry's sample and `μ`, `σ` the two [64, 1, 1, 1] arrays the call finds.

  Point `t` of the 64-point grid loads sample `t` of the input and entry `(t, 0, 0, 0)` of each column (`idx_facts1`,
  `iblk1_entry`, `iblk1_col`) and writes sample `t` of the result; the 64 slabs cover the result array.
-/
import proofs.«181415_j30167850287224_1_alg».proof.Proof.Gen.KernelIdeal.Frame
import proofs.«181415_j30167850287224_1_alg».proof.Proof.KernelBody
import Idealize.ShloMosaic.Lib.Pipeline.Value

noncomputable section

namespace Cert.KernelIdeal.Hand1

open Cert.KernelIdeal Cert.KernelIdeal.Gen Cert.KernelIdeal.Body Idealize.ShloMosaic Idealize.ShloMosaic.TcCoe Idealize.SL.Sem
open Idealize.ShloMosaic.Pipeline (Dat)
open Idealize.ShloMosaic.ValueIdx Cert.MaskedStats Cert.Sample

variable (V : (c : Dev nD) → (b : Ref sig .tc) → Buf (Elt Ideal) ((c : Thread nD τ).loc b))

theorem hz4 : (![0, 0, 0, 0] : Fin 4 → Nat) = fun _ => 0 := funext fun a => by fin_cases a <;> rfl

/-- A grid point of the second call as a sample number. -/
def ptRow (t : Fin cfg1.N) : Fin 64 := ⟨t.val, by have h := t.isLt; have e : cfg1.N = 64 := N_1; omega⟩

/-- The printed index maps of the second call, decided over the grid: every window's block at point `t` is block
    `(t, 0, 0, 0)`. -/
theorem idx_facts1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 4) = t.val ∧ win1_2.index t (1 : Fin 4) = 0 ∧ win1_2.index t (2 : Fin 4) = 0 ∧ win1_2.index t (3 : Fin 4) = 0)
    ∧ (win1_3.index t (0 : Fin 4) = t.val ∧ win1_3.index t (1 : Fin 4) = 0 ∧ win1_3.index t (2 : Fin 4) = 0 ∧ win1_3.index t (3 : Fin 4) = 0) :=
  (by decide +kernel : ∀ t : Fin grid1.N, _)

/-- The input window's block at point `t` is sample `t` of the array the call finds. -/
theorem iblk1_entry (c : Dev nD) (t : Fin cfg1.N) (y : S1x3x512x512.Idx) :
    (iblk1 V c 0 t : Vec Ideal S1x3x512x512 .f32) y = (V c main_arg0 : S64x3x512x512.Idx → EReal) (entry (ptRow t) y) := by
  obtain ⟨e0, e1, e2, e3⟩ := (idx_facts1 t).1
  unfold iblk1
  rw [View.read_apply]
  show V c main_arg0 _ = V c main_arg0 _
  congr 1
  funext a
  apply Fin.ext
  match a with
  | ⟨0, _⟩ => show win1_0.index t 0 * 1 + 1 * (y 0).val = t.val; have hy : (y 0).val < 1 := (y 0).isLt; omega
  | ⟨1, _⟩ => show win1_0.index t 1 * 3 + 1 * (y 1).val = (y 1).val; omega
  | ⟨2, _⟩ => show win1_0.index t 2 * 512 + 1 * (y 2).val = (y 2).val; omega
  | ⟨3, _⟩ => show win1_0.index t 3 * 512 + 1 * (y 3).val = (y 3).val; omega

/-- The first column window's block at point `t` is entry `(t, 0, 0, 0)` of its array. -/
theorem iblk1_col1 (c : Dev nD) (t : Fin cfg1.N) :
    (iblk1 V c 1 t : Vec Ideal S1x1x1x1 .f32) one0 = (V c main_v12 : S64x1x1x1.Idx → EReal) (ix4 (ptRow t) 0 0 0) := by
  obtain ⟨e0, e1, e2, e3⟩ := (idx_facts1 t).2.1
  unfold iblk1
  rw [View.read_apply]
  show V c main_v12 _ = V c main_v12 _
  congr 1
  funext a
  apply Fin.ext
  match a with
  | ⟨0, _⟩ => show win1_1.index t 0 * 1 + 1 * 0 = t.val; omega
  | ⟨1, _⟩ => show win1_1.index t 1 * 1 + 1 * 0 = 0; omega
  | ⟨2, _⟩ => show win1_1.index t 2 * 1 + 1 * 0 = 0; omega
  | ⟨3, _⟩ => show win1_1.index t 3 * 1 + 1 * 0 = 0; omega

/-- The second column window's likewise. -/
theorem iblk1_col2 (c : Dev nD) (t : Fin cfg1.N) :
    (iblk1 V c 2 t : Vec Ideal S1x1x1x1 .f32) one0 = (V c main_v13 : S64x1x1x1.Idx → EReal) (ix4 (ptRow t) 0 0 0) := by
  obtain ⟨e0, e1, e2, e3⟩ := (idx_facts1 t).2.2.1
  unfold iblk1
  rw [View.read_apply]
  show V c main_v13 _ = V c main_v13 _
  congr 1
  funext a
  apply Fin.ext
  match a with
  | ⟨0, _⟩ => show win1_2.index t 0 * 1 + 1 * 0 = t.val; omega
  | ⟨1, _⟩ => show win1_2.index t 1 * 1 + 1 * 0 = 0; omega
  | ⟨2, _⟩ => show win1_2.index t 2 * 1 + 1 * 0 = 0; omega
  | ⟨3, _⟩ => show win1_2.index t 3 * 1 + 1 * 0 = 0; omega

/-- What the result array holds: the entry where it is zero, elsewhere the entry centred and scaled by its
    sample's entries of the two columns. -/
def scaled (X : SArr.Idx → EReal) (μ σ : SCol.Idx → EReal) : SArr.Idx → EReal := fun i =>
  if X i = 0 then X i else Ideal.div (X i - μ (ix4 (rowOf i) 0 0 0)) (σ (ix4 (rowOf i) 0 0 0))

/-- What point `t` writes back: slab `t` of `scaled`. -/
theorem flushed1_3 (c : Dev nD) (t : Fin cfg1.N) :
    (dat1 V c).flushed 3 t = ((cfg1.win 3).blk t).view.read (Elt Ideal)
      (scaled (V c main_arg0 : S64x3x512x512.Idx → EReal) (V c main_v12 : S64x1x1x1.Idx → EReal) (V c main_v13 : S64x1x1x1.Idx → EReal)) := by
  show (cfg1.win 3).cut (grid1.coords t) ((dat1 V c).after 3 t) = _
  rw [after1_3]
  unfold out1_3
  rw [View.canon_unit_zero hz4]
  simp only [View.ld_unit_zero (S := S1x3x512x512) hz4, View.ld_unit_zero (S := S1x1x1x1) hz4]
  obtain ⟨e0, e1, e2, e3⟩ := (idx_facts1 t).2.2.2
  funext y
  have hemb : (((cfg1.win 3).blk t).view.emb y : S64x3x512x512.Idx) = entry (ptRow t) y := by
    funext a
    apply Fin.ext
    match a with
    | ⟨0, _⟩ => show win1_3.index t 0 * 1 + 1 * (y 0).val = t.val; have hy : (y 0).val < 1 := (y 0).isLt; omega
    | ⟨1, _⟩ => show win1_3.index t 1 * 3 + 1 * (y 1).val = (y 1).val; omega
    | ⟨2, _⟩ => show win1_3.index t 2 * 512 + 1 * (y 2).val = (y 2).val; omega
    | ⟨3, _⟩ => show win1_3.index t 3 * 512 + 1 * (y 3).val = (y 3).val; omega
  show k1_pay1 (iblk1 V c 0 t) (iblk1 V c 1 t) (iblk1 V c 2 t) y
    = scaled (V c main_arg0 : S64x3x512x512.Idx → EReal) (V c main_v12 : S64x1x1x1.Idx → EReal) (V c main_v13 : S64x1x1x1.Idx → EReal) (((cfg1.win 3).blk t).view.emb y)
  rw [pay_norm, iblk1_entry, iblk1_col1, iblk1_col2, hemb]
  rfl

/-- An entry of the result array is in point `t`'s block iff each coordinate is in the block's range. -/
theorem mem_blk1_3 (t : Fin cfg1.N) (i : S64x3x512x512.Idx) :
    i ∈ ((cfg1.win 3).blk t).view.set ↔ ∀ a : Fin 4, win1_3.index t a * S1x3x512x512.size a ≤ (i a).val ∧ (i a).val < win1_3.index t a * S1x3x512x512.size a + S1x3x512x512.size a := by
  show i ∈ ((View.whole main_v14).slice (win1_3.rect t)).set ↔ _
  rw [View.set_slice_whole, Rect.mem_set_unit]
  exact Iff.rfl

/-- Every entry of the result array is written: sample `b` by point `b`. -/
theorem covered1_3 (i : S64x3x512x512.Idx) : ∃ t : Fin cfg1.N, (cfg1.win 3).flush t = true ∧ i ∈ ((cfg1.win 3).blk t).view.set := by
  have hi0 : (i 0).val < 64 := (i 0).isLt
  have hi1 : (i 1).val < 3 := (i 1).isLt
  have hi2 : (i 2).val < 512 := (i 2).isLt
  have hi3 : (i 3).val < 512 := (i 3).isLt
  obtain ⟨t, ht⟩ : ∃ t : Fin cfg1.N, t.val = (i 0).val := ⟨⟨(i 0).val, by rw [show cfg1.N = 64 from N_1]; exact hi0⟩, rfl⟩
  refine ⟨t, flush1_3 t, ?_⟩
  rw [mem_blk1_3]
  obtain ⟨e0, e1, e2, e3⟩ := (idx_facts1 t).2.2.2
  intro a
  match a with
  | ⟨0, _⟩ => show win1_3.index t 0 * 1 ≤ (i 0).val ∧ (i 0).val < win1_3.index t 0 * 1 + 1; omega
  | ⟨1, _⟩ => show win1_3.index t 1 * 3 ≤ (i 1).val ∧ (i 1).val < win1_3.index t 1 * 3 + 3; omega
  | ⟨2, _⟩ => show win1_3.index t 2 * 512 ≤ (i 2).val ∧ (i 2).val < win1_3.index t 2 * 512 + 512; omega
  | ⟨3, _⟩ => show win1_3.index t 3 * 512 ≤ (i 3).val ∧ (i 3).val < win1_3.index t 3 * 512 + 512; omega

/-- After the second call the result array is `scaled` of the three arrays the call found. -/
theorem arr1_3 (c : Dev nD) : (dat1 V c).arrAt 3 cfg1.N
    = scaled (V c main_arg0 : S64x3x512x512.Idx → EReal) (V c main_v12 : S64x1x1x1.Idx → EReal) (V c main_v13 : S64x1x1x1.Idx → EReal) :=
  (dat1 V c).arrAt_eq_of_cover 3 _ (fun t _ => flushed1_3 V c t) covered1_3

end Cert.KernelIdeal.Hand1

end
-- ==== Proof.Normalized.lean ====
/-
  The normalised array, spelt two ways, and why the two are one array on real entries.

  Entry `i` of the result is the input's entry itself where that is zero, and elsewhere the entry centred on its
  sample's mean and divided by its sample's spread. `plain` takes mean and spread from the sample's plain sums
  (count, total, total of squares), `masked` from its masked sums. Where the entry is zero the two agree outright;
  where it is not, its sample has an entry that is not zero, so — every entry being a real number — the means and
  the spreads agree (Proof/MaskedStats.lean).
-/
import proofs.«181415_j30167850287224_1_alg».proof.Proof.MaskedStats
import proofs.«181415_j30167850287224_1_alg».proof.Proof.Sample

noncomputable section

namespace Cert.Normalized

open Idealize.ShloMosaic Idealize.ShloMosaic.ValueIdx Cert.MaskedStats Cert.Sample

/-- Mean and spread from the plain sums. -/
def plain (c1 : EReal) (X : SArr.Idx → EReal) : SArr.Idx → EReal := fun i =>
  if X i = 0 then X i
  else Ideal.div (X i - meanK (sample X (rowOf i))) (stdK c1 (sample X (rowOf i)))

/-- Mean and spread from the masked sums. -/
def masked (c1 : EReal) (X : SArr.Idx → EReal) : SArr.Idx → EReal := fun i =>
  if X i = 0 then X i
  else Ideal.div (X i - meanR (sample X (rowOf i))) (stdR c1 (sample X (rowOf i)))

theorem masked_eq_plain (c1 : EReal) (X : SArr.Idx → EReal) (hfin : ∀ i, ∃ r : ℝ, X i = r) : masked c1 X = plain c1 X := by
  funext i
  unfold masked plain
  by_cases h : X i = 0
  · rw [if_pos h, if_pos h]
  · rw [if_neg h, if_neg h, meanR_eq,
      stdR_eq c1 (sample X (rowOf i)) (fun y => hfin (entry (rowOf i) y))
        ⟨ix4 0 (i 1) (i 2) (i 3), by show X (entry (rowOf i) (ix4 0 (i 1) (i 2) (i 3))) ≠ 0; rw [entry_rowOf]; exact h⟩]

end Cert.Normalized

end
-- ==== Proof.KernelRun.lean ====
/-
  The whole kernel program, read as a value: its result array is the normalised input, mean and spread of each
  sample taken from the sample's plain sums.

  The first call leaves the three [64, 1, 1, 1] columns of counts, totals and totals of squares (Proof/Region0.lean).
  The host lines between the calls recast them to [64] vectors, form `mean = total / count` and
  `spread = √((squares − total · total / count) / (count − 1))` entry by entry, and recast both back to columns: at
  column entry `(b, 0, 0, 0)` they are sample `b`'s mean and spread (`V2_mean`, `V2_std`). The input array reaches the
  second call unchanged, and the second call writes `(x − mean) / spread` where `x ≠ 0` and `x` elsewhere
  (Proof/Region1.lean). The run itself is the frame's run of the two calls and the host stretch between them with the
  final contents of every buffer kept in its post.
-/
import proofs.«181415_j30167850287224_1_alg».proof.Proof.Gen.KernelIdeal.Frame
import proofs.«181415_j30167850287224_1_alg».proof.Proof.Region0
import proofs.«181415_j30167850287224_1_alg».proof.Proof.Region1
import proofs.«181415_j30167850287224_1_alg».proof.Proof.Normalized
import Idealize.ShloMosaic.Lib.StableHlo.Run
import Idealize.ShloMosaic.Lib.IdealHost

noncomputable section

namespace Cert.KernelIdeal.Whole

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Idealize.ShloMosaic.ValueIdx Cert.MaskedStats Cert.Sample

local notation "𝕄" => MT nD τ sig Unit (Elt Ideal) ℕ (UR sig nD τ) ℕ

variable (m : (ℓ : Loc nD τ sig) → Buf (Elt Ideal) ℓ) (ρ : Dev nD → PrngReg)

/-- The one subtracted from the count. -/
abbrev c1 : EReal := Ideal.ofBits .f32 0x3F800000#32

/-! ## After the first call -/

theorem W1_cnt (c : Dev nD) : (W1 m ρ c (Proc.devRef .tc main_v0_0) : S64x1x1x1.Idx → EReal)
    = fun j => cnt (sample (V0 m ρ c main_arg0 : S64x3x512x512.Idx → EReal) (colRow j)) :=
  (W1_arr m ρ c 1).trans (Hand.arr0_1 (V0 m ρ) c)

theorem W1_total (c : Dev nD) : (W1 m ρ c (Proc.devRef .tc main_v0_1) : S64x1x1x1.Idx → EReal)
    = fun j => total (sample (V0 m ρ c main_arg0 : S64x3x512x512.Idx → EReal) (colRow j)) :=
  (W1_arr m ρ c 2).trans (Hand.arr0_2 (V0 m ρ) c)

theorem W1_totalSq (c : Dev nD) : (W1 m ρ c (Proc.devRef .tc main_v0_2) : S64x1x1x1.Idx → EReal)
    = fun j => totalSq (sample (V0 m ρ c main_arg0 : S64x3x512x512.Idx → EReal) (colRow j)) :=
  (W1_arr m ρ c 3).trans (Hand.arr0_3 (V0 m ρ) c)

/-! ## The host lines between the calls -/

/-- The input array reaches the second call as launched. -/
theorem V2_arg0 (c : Dev nD) : V2 m ρ c main_arg0 = V0 m ρ c main_arg0 := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- The column of means, as the host lines compute it from the first call's columns. -/
theorem V2_v12 (c : Dev nD) : (V2 m ρ c main_v12 : S64x1x1x1.Idx → EReal)
    = shapeCast S64x1x1x1
        (Host.divf (F := Ideal)
          (shapeCast S64 (W1 m ρ c (Proc.devRef .tc main_v0_1) : S64x1x1x1.Idx → EReal) shapeCasts_S64x1x1x1_S64 : FVec Ideal S64 .f32)
          (shapeCast S64 (W1 m ρ c (Proc.devRef .tc main_v0_0) : S64x1x1x1.Idx → EReal) shapeCasts_S64x1x1x1_S64 : FVec Ideal S64 .f32))
        shapeCasts_S64_S64x1x1x1 := by
  show StableHlo.after hostOps1 (W1 m ρ c) (Proc.devRef .tc main_v12) = _
  after_results
  rfl

/-- The column of spreads likewise. -/
theorem V2_v13 (c : Dev nD) : (V2 m ρ c main_v13 : S64x1x1x1.Idx → EReal)
    = shapeCast S64x1x1x1
        (Host.sqrt (F := Ideal)
          (Host.divf (F := Ideal)
            (subf (F := Ideal)
              (shapeCast S64 (W1 m ρ c (Proc.devRef .tc main_v0_2) : S64x1x1x1.Idx → EReal) shapeCasts_S64x1x1x1_S64 : FVec Ideal S64 .f32)
              (Host.divf (F := Ideal)
                (mulf (F := Ideal)
                  (shapeCast S64 (W1 m ρ c (Proc.devRef .tc main_v0_1) : S64x1x1x1.Idx → EReal) shapeCasts_S64x1x1x1_S64 : FVec Ideal S64 .f32)
                  (shapeCast S64 (W1 m ρ c (Proc.devRef .tc main_v0_1) : S64x1x1x1.Idx → EReal) shapeCasts_S64x1x1x1_S64 : FVec Ideal S64 .f32))
                (shapeCast S64 (W1 m ρ c (Proc.devRef .tc main_v0_0) : S64x1x1x1.Idx → EReal) shapeCasts_S64x1x1x1_S64 : FVec Ideal S64 .f32)))
            (subf (F := Ideal)
              (shapeCast S64 (W1 m ρ c (Proc.devRef .tc main_v0_0) : S64x1x1x1.Idx → EReal) shapeCasts_S64x1x1x1_S64 : FVec Ideal S64 .f32)
              (broadcastInDim S64 ![] bcast_S_S64 (constant (F := Ideal) S_ .f32 0x3F800000#32)))))
        shapeCasts_S64_S64x1x1x1 := by
  show StableHlo.after hostOps1 (W1 m ρ c) (Proc.devRef .tc main_v13) = _
  after_results
  rfl

theorem colRow_col (b : Fin 64) : colRow (ix4 b 0 0 0) = b := rfl

theorem hostSqrt_apply {s : Shape} (v : FVec Ideal s .f32) (i : s.Idx) : Host.sqrt v i = Ideal.sqrt (v i) := rfl

/-- Column entry `(b, 0, 0, 0)` of the means is sample `b`'s mean from the plain sums. -/
theorem V2_mean (c : Dev nD) (b : Fin 64) : (V2 m ρ c main_v12 : S64x1x1x1.Idx → EReal) (ix4 b 0 0 0)
    = meanK (sample (V0 m ρ c main_arg0 : S64x3x512x512.Idx → EReal) b) := by
  rw [V2_v12, colOfRow, hostDivf_apply, rowOfCol, rowOfCol, W1_total, W1_cnt]
  simp only [colRow_col]
  rfl

/-- Column entry `(b, 0, 0, 0)` of the spreads is sample `b`'s spread from the plain sums. -/
theorem V2_std (c : Dev nD) (b : Fin 64) : (V2 m ρ c main_v13 : S64x1x1x1.Idx → EReal) (ix4 b 0 0 0)
    = stdK c1 (sample (V0 m ρ c main_arg0 : S64x3x512x512.Idx → EReal) b) := by
  rw [V2_v13, colOfRow, hostSqrt_apply, hostDivf_apply, subf_apply, hostDivf_apply, mulf_apply, subf_apply,
    rowOfCol, rowOfCol, rowOfCol, broadcastInDim_scalar_apply, W1_total, W1_cnt, W1_totalSq]
  simp only [colRow_col]
  rfl

/-! ## After the second call -/

/-- The result array at the end: the normalised input, from the plain sums. -/
theorem final (c : Dev nD) : (W3 m ρ c (Proc.devRef .tc main_v14) : S64x3x512x512.Idx → EReal)
    = Cert.Normalized.plain c1 (m ((c : Thread nD τ).loc main_arg0) : S64x3x512x512.Idx → EReal) := by
  refine ((W3_arr m ρ c 3).trans (Hand1.arr1_3 (V2 m ρ) c)).trans ?_
  funext i
  unfold Hand1.scaled Cert.Normalized.plain
  rw [V2_arg0, V2_mean, V2_std]

/-! ## The run -/

-- the kit's implicit arguments are found by unifying its conclusion with this one, which takes unfolding plain
-- definitions in a metavariable's type
set_option backward.isDefEq.respectTransparency.types false in
/-- Every weakly fair execution of the program terminates, nothing faulting, with every buffer the TensorCore keeps
    at the contents the two calls and the host stretch leave (`W3`). -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run, read: the result array ends at the normalised input (mean and spread from the plain sums), the
    input array unchanged. -/
theorem run : θ_run defs (onTc (τ := τ) (main (F := Ideal))) ⟨m, fun _ => 0, ρ⟩ (fun r => ∀ c : Dev nD,
      r.2.mem ((c.tc : Thread nD τ).loc main_v14) = Cert.Normalized.plain c1 (m ((c : Thread nD τ).loc main_arg0) : S64x3x512x512.Idx → EReal)
      ∧ r.2.mem ((c.tc : Thread nD τ).loc main_arg0) = m ((c.tc : Thread nD τ).loc main_arg0)) :=
  (θ_run defs _ _).mono (fun r h c =>
      ⟨(h c _ (mem_uc main_v14 (by decide))).trans (final m ρ c),
       (h c _ (mem_uc main_arg0 (by decide))).trans (W3_main_arg0 m ρ c)⟩)
    (run_all m ρ)

end Cert.KernelIdeal.Whole

end
-- ==== Proof.RefValue.lean ====
/-
  The reference, read as values at the extended reals.

  Stage by stage (the generated read-at-an-index lemmas), with the three host sums over the axes 1, 2, 3 read as
  sums over a sample: the mask entry is the mask's value; the count, the masked total and — around the mean broadcast
  back over the sample — the masked sum of squared deviations are the sample's; the result entry is the entry itself
  where it is zero and `(x − mean) / spread` elsewhere, mean and spread taken from the masked sums.
-/
import proofs.«181415_j30167850287224_1_alg».proof.Proof.Gen.ReferenceIdeal.Read
import proofs.«181415_j30167850287224_1_alg».proof.Proof.MaskedStats
import proofs.«181415_j30167850287224_1_alg».proof.Proof.Sample
import proofs.«181415_j30167850287224_1_alg».proof.Proof.Normalized
import Idealize.ShloMosaic.Lib.IdealHost
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.MaskedStats Cert.Sample

/-- The comparison "not equal to zero" (the host's spelling), on the extended reals, as a bit. -/
theorem cmp_une_zero (x : EReal) : Ideal.cmp .une x (Ideal.ofBits .f32 0x00000000#32) = if x = 0 then 0#1 else 1#1 := by
  rw [Ideal.ofBits_zero_f32]
  unfold Ideal.cmp
  by_cases h : x = 0
  · rw [if_pos h]; simp [h]
  · rw [if_neg h]; simp [h]

/-- The mask entry — the bit read as an unsigned integer — is the mask's value. -/
theorem v2_eq (X : SArr.Idx → EReal) (e : SArr.Idx) : val_main_v2 (F := Ideal) X e = ind (X e) := by
  rw [val_main_v2_apply, val_main_v1_apply, val_main_v0_apply, val_main_cst_apply]
  show (((Ideal.cmp .une (X e) (Ideal.ofBits .f32 0x00000000#32)).toNat : ℝ) : EReal) = ind (X e)
  rw [cmp_une_zero]
  unfold ind
  by_cases h : X e = 0
  · rw [if_pos h, if_pos h]; simp
  · rw [if_neg h, if_neg h]; simp

/-- The choice on that bit. -/
theorem v1_select {α : Type} (X : SArr.Idx → EReal) (e : SArr.Idx) (a b : α) :
    Scalar.select (val_main_v1 (F := Ideal) X e) a b = if X e = 0 then b else a := by
  rw [val_main_v1_apply, val_main_v0_apply, val_main_cst_apply]
  show Scalar.select (Ideal.cmp .une (X e) (Ideal.ofBits .f32 0x00000000#32)) a b = _
  rw [cmp_une_zero]
  by_cases h : X e = 0
  · rw [if_pos h, if_pos h]; exact select_zero a b
  · rw [if_neg h, if_neg h]; exact select_one a b

/-- The count of sample `b`. -/
theorem v3_eq (X : SArr.Idx → EReal) (b : Fin 64) : val_main_v3 (F := Ideal) X (ix1 b) = cnt (sample X b) := by
  unfold val_main_v3
  rw [hostReduceAdd_apply, hostSum, val_main_cst_0_apply]
  show Ideal.ofBits .f32 0x00000000#32 + _ = _
  rw [Ideal.ofBits_zero_f32, zero_add]
  exact Finset.sum_congr rfl fun y _ => v2_eq X (entry b y)

/-- The masked total of sample `b`. -/
theorem v6_eq (X : SArr.Idx → EReal) (b : Fin 64) : val_main_v6 (F := Ideal) X (ix1 b) = maskedTotal (sample X b) := by
  unfold val_main_v6
  rw [hostReduceAdd_apply, hostSum, val_main_cst_1_apply]
  show Ideal.ofBits .f32 0x00000000#32 + _ = _
  rw [Ideal.ofBits_zero_f32, zero_add]
  refine Finset.sum_congr rfl fun y _ => ?_
  rw [val_main_v5_apply, v2_eq]
  rfl

theorem idx4_eq (j : SCol.Idx) : idx_main_v4 j = ix1 (colRow j) := funext fun a => by
  match a with
  | ⟨0, _⟩ => rfl
theorem idx7_eq (j : SCol.Idx) : idx_main_v7 j = ix1 (colRow j) := funext fun a => by
  match a with
  | ⟨0, _⟩ => rfl
theorem idx14_eq (j : SCol.Idx) : idx_main_v14 j = ix1 (colRow j) := funext fun a => by
  match a with
  | ⟨0, _⟩ => rfl

/-- The mean of the sample a column entry stands for. -/
theorem v8_eq (X : SArr.Idx → EReal) (j : SCol.Idx) : val_main_v8 (F := Ideal) X j = meanR (sample X (colRow j)) := by
  rw [val_main_v8_apply, val_main_v7_apply, val_main_v4_apply, idx7_eq, idx4_eq, v6_eq, v3_eq]
  rfl

/-- The mean broadcast back over the array reads, at an entry of sample `b`, sample `b`'s mean. -/
theorem v9_eq (X : SArr.Idx → EReal) (e : SArr.Idx) : val_main_v9 (F := Ideal) X e = meanR (sample X (rowOf e)) := by
  rw [val_main_v9_apply, v8_eq]
  rfl
theorem v19_eq (X : SArr.Idx → EReal) (e : SArr.Idx) : val_main_v19 (F := Ideal) X e = meanR (sample X (rowOf e)) := by
  rw [val_main_v19_apply, v8_eq]
  rfl

/-- The masked sum of squared deviations of sample `b` from its mean. -/
theorem v13_eq (X : SArr.Idx → EReal) (b : Fin 64) :
    val_main_v13 (F := Ideal) X (ix1 b) = maskedDev (sample X b) (meanR (sample X b)) := by
  unfold val_main_v13
  rw [hostReduceAdd_apply, hostSum, val_main_cst_2_apply]
  show Ideal.ofBits .f32 0x00000000#32 + _ = _
  rw [Ideal.ofBits_zero_f32, zero_add]
  refine Finset.sum_congr rfl fun y _ => ?_
  rw [val_main_v12_apply, val_main_v11_apply, val_main_v10_apply, v9_eq, v2_eq]
  rfl

/-- The spread of the sample a column entry stands for. -/
theorem v18_eq (X : SArr.Idx → EReal) (j : SCol.Idx) :
    val_main_v18 (F := Ideal) X j = stdR (Ideal.ofBits .f32 0x3F800000#32) (sample X (colRow j)) := by
  rw [val_main_v18_apply, val_main_v17_apply, val_main_v14_apply, val_main_v16_apply, val_main_v4_apply, val_main_v15_apply,
    val_main_cst_3_apply, idx14_eq, idx4_eq, v13_eq, v3_eq]
  rfl

/-- The reference's result: an entry that is zero stays; any other is centred on its sample's mean and scaled by
    its sample's spread, both from the masked sums. -/
theorem v23_eq (X : SArr.Idx → EReal) : val_main_v23 (F := Ideal) X = Cert.Normalized.masked (Ideal.ofBits .f32 0x3F800000#32) X := by
  funext i
  rw [val_main_v23_apply, v1_select, val_main_v22_apply, val_main_v20_apply, val_main_v21_apply, v19_eq, v18_eq]
  rfl

end Cert.ReferenceIdeal.RefValue

end
-- ==== Proof.Finite.lean ====
/-
  The precondition, read: every entry of the input array is a real number.

  The precondition says that `|x| < +∞` holds at every entry (an "and" over all of them that came out true). On the
  extended reals `|x| = max x (−x)`, which is `+∞` at both infinities; so an entry below `+∞` in absolute value is
  neither infinity, that is, a real number.
-/
import proofs.«181415_j30167850287224_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

instance : Subsingleton Cert.Pre_finite_inputs.S_.Idx := ⟨fun a b => funext fun d => d.elim0⟩

/-- The f32 pattern of `+∞` is the extended reals' top. -/
theorem ofBits_inf : Ideal.ofBits .f32 0x7F800000#32 = ⊤ := by simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = r := by
  rw [ofBits_inf] at h
  have hlt : max x (-x) < ⊤ := by
    unfold Ideal.cmp at h
    by_contra hn
    simp [hn] at h
  induction x using EReal.rec with
  | bot => exact absurd hlt (by simp)
  | top => exact absurd hlt (by simp)
  | coe r => exact ⟨r, rfl⟩

/-- Under the precondition every entry of the input is a real number. -/
theorem real_of_pre [Cert.Pre_finite_inputs.Facts] (X : FVec Ideal Cert.Pre_finite_inputs.S64x3x512x512 .f32)
    (h : Cert.Pre_finite_inputs.fn (F := Ideal) X = fun _ => 1#1) (i : Cert.Pre_finite_inputs.S64x3x512x512.Idx) :
    ∃ r : ℝ, X i = r := by
  have h0 := congrFun h ix0
  dsimp only [Cert.Pre_finite_inputs.fn] at h0
  have hi := Host.reduce_andi_all _ _ _ _ _ h0 i
  exact real_of_abs_lt (X i) hi

end Cert.Finite

end
-- ==== Proof.lean ====
/-
  Per-sample masked normalisation of a [64, 3, 512, 512] array: the kernel program against its reference, over the
  extended reals.

  Both programs keep an entry that is zero and replace any other entry `x` of sample `b` by `(x − mean b) / spread b`,
  the mean and the unbiased spread being those of the sample's entries that are not zero. The kernel program's first
  call sums, per sample, the mask, the entries and their squares; host lines form `mean = S / n` and
  `spread = √((Q − S·S / n) / (n − 1))`; its second call applies them (Proof/KernelRun.lean). The reference masks the
  entries and the squared deviations before summing (Proof/RefValue.lean). A masked-out entry is zero, so masking
  changes no sum of entries, and on real entries `∑ (x − S/n)² · mask = Q − S·S / n` whenever some entry is not zero
  (Proof/MaskedStats.lean); an entry that is not zero is such a witness for its own sample, and an entry that is zero is
  kept by both programs whatever mean and spread are (Proof/Normalized.lean). That the entries are real numbers is the
  precondition (Proof/Finite.lean). The ideal pass rewrote nothing, so the preservation claim is empty; the three
  frames are the generated runs.
-/
import proofs.«181415_j30167850287224_1_alg».proof.Defs
import proofs.«181415_j30167850287224_1_alg».proof.Proof.Gen.Kernel
import proofs.«181415_j30167850287224_1_alg».proof.Proof.Gen.Kernel.Skeleton
import proofs.«181415_j30167850287224_1_alg».proof.Proof.Gen.Kernel.Launch
import proofs.«181415_j30167850287224_1_alg».proof.Proof.Gen.Kernel.Points
import proofs.«181415_j30167850287224_1_alg».proof.Proof.Gen.Kernel.Frame
import proofs.«181415_j30167850287224_1_alg».proof.Proof.Gen.KernelIdeal
import proofs.«181415_j30167850287224_1_alg».proof.Proof.Gen.KernelIdeal.Skeleton
import proofs.«181415_j30167850287224_1_alg».proof.Proof.Gen.KernelIdeal.Launch
import proofs.«181415_j30167850287224_1_alg».proof.Proof.Gen.KernelIdeal.Points
import proofs.«181415_j30167850287224_1_alg».proof.Proof.Gen.KernelIdeal.Frame
import proofs.«181415_j30167850287224_1_alg».proof.Proof.Gen.ReferenceIdeal
import proofs.«181415_j30167850287224_1_alg».proof.Proof.Gen.ReferenceIdeal.Run
import proofs.«181415_j30167850287224_1_alg».proof.Proof.Gen.ReferenceIdeal.Read
import proofs.«181415_j30167850287224_1_alg».proof.Proof.Gen.Pre_finite_inputs
import proofs.«181415_j30167850287224_1_alg».proof.Proof.KernelRun
import proofs.«181415_j30167850287224_1_alg».proof.Proof.RefValue
import proofs.«181415_j30167850287224_1_alg».proof.Proof.Normalized
import proofs.«181415_j30167850287224_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the normalised input: the kernel program with mean and spread from the plain sums, the
    reference with them from the masked sums; on real entries these are one array. -/
theorem algebraic : Cert.algebraic_KernelIdeal_ReferenceIdeal := by
  intro m ρ m' ρ' hpre hagree
  refine ⟨fun c => Cert.Normalized.plain Cert.KernelIdeal.Whole.c1 (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.v23_eq, hagree c]
  exact Cert.Normalized.masked_eq_plain _ _ fun i => Cert.Finite.real_of_pre _ (hpre c) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
